-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S8192x16 : Shape := ⟨2, ![8192, 16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S2048x16 .f32) (main_arg1 : FVec F S8192x16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S2048x16 : Shape := ⟨2, ![2048, 16]⟩
abbrev S8192x16 : Shape := ⟨2, ![8192, 16]⟩
abbrev S16x8192 : Shape := ⟨2, ![16, 8192]⟩
abbrev S2048x8192 : Shape := ⟨2, ![2048, 8192]⟩
abbrev S256x16 : Shape := ⟨2, ![256, 16]⟩
abbrev S16x2048 : Shape := ⟨2, ![16, 2048]⟩
abbrev S256x2048 : Shape := ⟨2, ![256, 2048]⟩
abbrev S256x1 : Shape := ⟨2, ![256, 1]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x16, .f32⟩
  | .hbm, ⟨1, _⟩ => ⟨S8192x16, .f32⟩
  | .hbm, ⟨2, _⟩ => ⟨S16x8192, .f32⟩
  | .hbm, ⟨3, _⟩ => ⟨S2048x8192, .f32⟩
  | .local _ .vmem, ⟨0, _⟩ => ⟨S256x16, .f32⟩
  | .local _ .vmem, ⟨1, _⟩ => ⟨S256x16, .f32⟩
  | .local _ .vmem, ⟨2, _⟩ => ⟨S16x2048, .f32⟩
  | .local _ .vmem, ⟨3, _⟩ => ⟨S16x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x16_S16x8192_1_0 : S8192x16.Transposes [1, 0] S16x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x16_S256x1_0_0 : ∀ a, (![0, 0] : Fin 2 → Nat) a + S256x1.size a ≤ S256x16.size a
  h_S256x1 : 0 < S256x1.numel
  inb_S16x2048_S1x2048_0_0 : ∀ a, (![0, 0] : Fin 2 → Nat) a + S1x2048.size a ≤ S16x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S256x16_S256x1_0_1 : ∀ a, (![0, 1] : Fin 2 → Nat) a + S256x1.size a ≤ S256x16.size a
  inb_S16x2048_S1x2048_1_0 : ∀ a, (![1, 0] : Fin 2 → Nat) a + S1x2048.size a ≤ S16x2048.size a
  inb_S256x16_S256x1_0_2 : ∀ a, (![0, 2] : Fin 2 → Nat) a + S256x1.size a ≤ S256x16.size a
  inb_S16x2048_S1x2048_2_0 : ∀ a, (![2, 0] : Fin 2 → Nat) a + S1x2048.size a ≤ S16x2048.size a
  inb_S256x16_S256x1_0_3 : ∀ a, (![0, 3] : Fin 2 → Nat) a + S256x1.size a ≤ S256x16.size a
  inb_S16x2048_S1x2048_3_0 : ∀ a, (![3, 0] : Fin 2 → Nat) a + S1x2048.size a ≤ S16x2048.size a
  inb_S256x16_S256x1_0_4 : ∀ a, (![0, 4] : Fin 2 → Nat) a + S256x1.size a ≤ S256x16.size a
  inb_S16x2048_S1x2048_4_0 : ∀ a, (![4, 0] : Fin 2 → Nat) a + S1x2048.size a ≤ S16x2048.size a
  inb_S256x16_S256x1_0_5 : ∀ a, (![0, 5] : Fin 2 → Nat) a + S256x1.size a ≤ S256x16.size a
  inb_S16x2048_S1x2048_5_0 : ∀ a, (![5, 0] : Fin 2 → Nat) a + S1x2048.size a ≤ S16x2048.size a
  inb_S256x16_S256x1_0_6 : ∀ a, (![0, 6] : Fin 2 → Nat) a + S256x1.size a ≤ S256x16.size a
  inb_S16x2048_S1x2048_6_0 : ∀ a, (![6, 0] : Fin 2 → Nat) a + S1x2048.size a ≤ S16x2048.size a
  inb_S256x16_S256x1_0_7 : ∀ a, (![0, 7] : Fin 2 → Nat) a + S256x1.size a ≤ S256x16.size a
  inb_S16x2048_S1x2048_7_0 : ∀ a, (![7, 0] : Fin 2 → Nat) a + S1x2048.size a ≤ S16x2048.size a
  inb_S256x16_S256x1_0_8 : ∀ a, (![0, 8] : Fin 2 → Nat) a + S256x1.size a ≤ S256x16.size a
  inb_S16x2048_S1x2048_8_0 : ∀ a, (![8, 0] : Fin 2 → Nat) a + S1x2048.size a ≤ S16x2048.size a
  inb_S256x16_S256x1_0_9 : ∀ a, (![0, 9] : Fin 2 → Nat) a + S256x1.size a ≤ S256x16.size a
  inb_S16x2048_S1x2048_9_0 : ∀ a, (![9, 0] : Fin 2 → Nat) a + S1x2048.size a ≤ S16x2048.size a
  inb_S256x16_S256x1_0_10 : ∀ a, (![0, 10] : Fin 2 → Nat) a + S256x1.size a ≤ S256x16.size a
  inb_S16x2048_S1x2048_10_0 : ∀ a, (![10, 0] : Fin 2 → Nat) a + S1x2048.size a ≤ S16x2048.size a
  inb_S256x16_S256x1_0_11 : ∀ a, (![0, 11] : Fin 2 → Nat) a + S256x1.size a ≤ S256x16.size a
  inb_S16x2048_S1x2048_11_0 : ∀ a, (![11, 0] : Fin 2 → Nat) a + S1x2048.size a ≤ S16x2048.size a
  inb_S256x16_S256x1_0_12 : ∀ a, (![0, 12] : Fin 2 → Nat) a + S256x1.size a ≤ S256x16.size a
  inb_S16x2048_S1x2048_12_0 : ∀ a, (![12, 0] : Fin 2 → Nat) a + S1x2048.size a ≤ S16x2048.size a
  inb_S256x16_S256x1_0_13 : ∀ a, (![0, 13] : Fin 2 → Nat) a + S256x1.size a ≤ S256x16.size a
  inb_S16x2048_S1x2048_13_0 : ∀ a, (![13, 0] : Fin 2 → Nat) a + S1x2048.size a ≤ S16x2048.size a
  inb_S256x16_S256x1_0_14 : ∀ a, (![0, 14] : Fin 2 → Nat) a + S256x1.size a ≤ S256x16.size a
  inb_S16x2048_S1x2048_14_0 : ∀ a, (![14, 0] : Fin 2 → Nat) a + S1x2048.size a ≤ S16x2048.size a
  inb_S256x16_S256x1_0_15 : ∀ a, (![0, 15] : Fin 2 → Nat) a + S256x1.size a ≤ S256x16.size a
  inb_S16x2048_S1x2048_15_0 : ∀ a, (![15, 0] : Fin 2 → Nat) a + S1x2048.size a ≤ S16x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S2048x16.size a
  hwx0_0 : ∀ i : grid0.Coords, EltTy.bits .f32 = 32 ∨ (Rect.block (s := S2048x16) S256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x8192.size a
  hwx0_1 : ∀ i : grid0.Coords, EltTy.bits .f32 = 32 ∨ (Rect.block (s := S16x8192) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x8192.size a
  hwx0_2 : ∀ i : grid0.Coords, EltTy.bits .f32 = 32 ∨ (Rect.block (s := S2048x8192) S256x2048.size (cc0_transform_2 i) (hinb0_2 i)).WholeWords (EltTy.packing .f32)

variable [Facts₀]

abbrev win0_0 : Pipeline.Window sig grid0 :=
  Pipeline.Window.ofSpec (Memref.whole main_arg0) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x16 : Shape := ⟨2, ![2048, 16]⟩
abbrev S8192x16 : Shape := ⟨2, ![8192, 16]⟩
abbrev S2048x1x16 : Shape := ⟨3, ![2048, 1, 16]⟩
abbrev S1x8192x16 : Shape := ⟨3, ![1, 8192, 16]⟩
abbrev S2048x8192x16 : Shape := ⟨3, ![2048, 8192, 16]⟩
abbrev S_ : Shape := ⟨0, ![]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S8192x16, .f32⟩
  | .hbm, ⟨2, _⟩ => ⟨S2048x1x16, .f32⟩
  | .hbm, ⟨3, _⟩ => ⟨S1x8192x16, .f32⟩
  | .hbm, ⟨4, _⟩ => ⟨S2048x8192x16, .f32⟩
  | .hbm, ⟨5, _⟩ => ⟨S2048x8192x16, .f32⟩
  | .hbm, ⟨6, _⟩ => ⟨S2048x8192x16, .f32⟩
  | .hbm, ⟨7, _⟩ => ⟨S_, .f32⟩
  | .hbm, ⟨8, _⟩ => ⟨S2048x8192x16, .f32⟩
  | .hbm, ⟨9, _⟩ => ⟨S2048x8192x16, .f32⟩
  | .hbm, ⟨10, _⟩ => ⟨S_, .f32⟩
  | .hbm, ⟨11, _⟩ => ⟨S2048x8192, .f32⟩
  | .hbm, ⟨12, _⟩ => ⟨S2048x8192, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S2048x16_S2048x1x16_0_2 : S2048x16.BroadcastsInDim S2048x1x16 (![0, 2] : Fin 2 → Fin S2048x1x16.rank)
  bcast_S8192x16_S1x8192x16_1_2 : S8192x16.BroadcastsInDim S1x8192x16 (![1, 2] : Fin 2 → Fin S1x8192x16.rank)
  bcast_S2048x1x16_S2048x8192x16_0_1_2 : S2048x1x16.BroadcastsInDim S2048x8192x16 (![0, 1, 2] : Fin 3 → Fin S2048x8192x16.rank)
  bcast_S1x8192x16_S2048x8192x16_0_1_2 : S1x8192x16.BroadcastsInDim S2048x8192x16 (![0, 1, 2] : Fin 3 → Fin S2048x8192x16.rank)
  bcast_S_S2048x8192x16 : S_.BroadcastsInDim S2048x8192x16 (![] : Fin 0 → Fin S2048x8192x16.rank)
  reducesTo_S2048x8192x16_S2048x8192_d2 : S2048x8192x16.ReducesTo [2] S2048x8192
  h_S_ : 0 < S_.numel

variable [Facts₀]

class Facts : Prop extends Facts₀ where

variable [Facts]
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Scores.lean ====
/-
  The function both programs compute.  For a query row `a` and a corpus row `b`,

      scoreAt q c a b = -(Σ_k max (q a k - c b k) 0),      k over the sixteen coordinates,

  on the extended reals; `scores q c` is the 2048 × 8192 array of these.  One program accumulates the sixteen terms one
  after the other starting from zero, the other sums them at once starting from zero: addition of extended reals is
  associative with neutral element `0`, so the two agree at every input, infinite ones included (`chain16`).
-/
import Idealize.ShloMosaic.PureOps.Ideal
import Idealize.ShloMosaic.Lib.ValueIdx

noncomputable section

namespace Cert.Scores

open Idealize.ShloMosaic Idealize.ShloMosaic.ValueIdx

/-- Sixteen terms added one after the other to zero, first to last, are their sum. -/
theorem chain16 (t : Fin 16 → EReal) :
    0 + t 0 + t 1 + t 2 + t 3 + t 4 + t 5 + t 6 + t 7 + t 8 + t 9 + t 10 + t 11 + t 12 + t 13 + t 14 + t 15
      = ∑ k : Fin 16, t k := by
  rw [Finset.sum_fin_eq_sum_range]
  simp only [Finset.sum_range_succ, Finset.sum_range_zero]
  rfl

/-- The score of query row `a` against corpus row `b`: minus the sum over the coordinates of the positive parts of
    the coordinate differences. -/
def scoreAt (q : (⟨2, ![2048, 16]⟩ : Shape).Idx → Ideal .f32) (c : (⟨2, ![8192, 16]⟩ : Shape).Idx → Ideal .f32)
    (a : Fin 2048) (b : Fin 8192) : Ideal .f32 :=
  -(∑ k : Fin 16, max (q (ix2 a k) - c (ix2 b k)) 0)

/-- The whole array of scores. -/
def scores (q : (⟨2, ![2048, 16]⟩ : Shape).Idx → Ideal .f32) (c : (⟨2, ![8192, 16]⟩ : Shape).Idx → Ideal .f32) :
    (⟨2, ![2048, 8192]⟩ : Shape).Idx → Ideal .f32 :=
  fun i => scoreAt q c (i 0) (i 1)

theorem scores_ix2 (q : (⟨2, ![2048, 16]⟩ : Shape).Idx → Ideal .f32) (c : (⟨2, ![8192, 16]⟩ : Shape).Idx → Ideal .f32)
    (a : Fin 2048) (b : Fin 8192) : scores q c (ix2 a b) = scoreAt q c a b := rfl

/-- Zero minus the sixteen terms accumulated from zero is the score: what a program that accumulates and then
    subtracts from zero computes. -/
theorem zero_sub_chain (t : Fin 16 → EReal) :
    0 - (0 + t 0 + t 1 + t 2 + t 3 + t 4 + t 5 + t 6 + t 7 + t 8 + t 9 + t 10 + t 11 + t 12 + t 13 + t 14 + t 15)
      = -(∑ k : Fin 16, t k) := by
  rw [chain16, zero_sub]

/-- The negated sum from zero is the score: what a program that sums from an initial zero and negates computes. -/
theorem neg_zero_add_sum (t : Fin 16 → EReal) : -(0 + ∑ k : Fin 16, t k) = -(∑ k : Fin 16, t k) := by
  rw [zero_add]

end Cert.Scores

end
-- ==== Proof.BodyValue.lean ====
/-
  What one run of the kernel body leaves in its output block, as a function of the two input blocks it is given:
  a block `x0` of 256 query rows (16 coordinates each) and a block `x1` of the transposed corpus (16 coordinate rows
  of 2048 corpus columns each).  The body zeroes an accumulator, adds for each coordinate `d = 0, …, 15` in turn the
  outer difference `max (x0 p d - x1 d r) 0`, and stores `0 - accumulator`.  Every accumulator store covers the whole
  buffer, so each read-back of the accumulator is the payload stored just before it.
-/
import proofs.«107500_j68882685493537_2_alg».proof.Proof.Gen.KernelIdeal.Frame
import proofs.«107500_j68882685493537_2_alg».proof.Proof.LibKeepdims
import proofs.«107500_j68882685493537_2_alg».proof.Proof.Scores
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The accumulator's first contents: every entry the zero word. -/
def zeroBlock : FVec F S256x2048 .f32 :=
  shapeCast S256x2048 (broadcast S256x2048 (Scalar.ofBits .f32 0x00000000#32)) shapeCasts_S256x2048_S256x2048

/-- One coordinate's step: to the accumulator `acc` add `max (q - cr) 0`, the query column `q` laid along the
    columns and the corpus row `cr` laid along the rows. -/
def step (q : Vec F S256x1 .f32) (cr : Vec F S1x2048 .f32) (acc : Vec F S256x2048 .f32) : FVec F S256x2048 .f32 :=
  shapeCast S256x2048
    (addf acc (maximumf
      (subf (broadcastTo S256x2048 q broadcasts_S256x1_S256x2048)
        (broadcastTo S256x2048 (shapeCast S1x2048 cr shapeCasts_S1x2048_S1x2048) broadcasts_S1x2048_S256x2048))
      (broadcast S256x2048 (Scalar.ofBits .f32 0x00000000#32))))
    shapeCasts_S256x2048_S256x2048

/-- The last operation: the accumulator subtracted from the zero block. -/
def negate (acc : Vec F S256x2048 .f32) : FVec F S256x2048 .f32 :=
  subf (broadcast S256x2048 (Scalar.ofBits .f32 0x00000000#32)) acc

/-! Each stored value of the body is one of these three. (Four of the sixteen steps are printed in two halves.) -/

theorem pay3_eq : (k0_pay3 : FVec F S256x2048 .f32) = zeroBlock := rfl
theorem pay2_eq (acc : Vec F S256x2048 .f32) : k0_pay2 acc = negate acc := rfl
theorem pay4_eq (q : Vec F S256x1 .f32) (cr : Vec F S1x2048 .f32) (acc : Vec F S256x2048 .f32) : k0_pay4 q cr acc = step q cr acc := rfl
theorem pay5_eq (q : Vec F S256x1 .f32) (cr : Vec F S1x2048 .f32) (acc : Vec F S256x2048 .f32) : k0_pay5 q cr acc = step q cr acc := rfl
theorem pay6_eq (q : Vec F S256x1 .f32) (cr : Vec F S1x2048 .f32) (acc : Vec F S256x2048 .f32) : k0_pay6 q cr acc = step q cr acc := rfl
theorem pay7_eq (q : Vec F S256x1 .f32) (cr : Vec F S1x2048 .f32) (acc : Vec F S256x2048 .f32) : k0_pay7 q cr acc = step q cr acc := rfl
theorem pay9_eq (q : Vec F S256x1 .f32) (cr : Vec F S1x2048 .f32) (acc : Vec F S256x2048 .f32) : k0_pay9 (k0_pay8 q cr acc) = step q cr acc := rfl
theorem pay10_eq (q : Vec F S256x1 .f32) (cr : Vec F S1x2048 .f32) (acc : Vec F S256x2048 .f32) : k0_pay10 q cr acc = step q cr acc := rfl
theorem pay11_eq (q : Vec F S256x1 .f32) (cr : Vec F S1x2048 .f32) (acc : Vec F S256x2048 .f32) : k0_pay11 q cr acc = step q cr acc := rfl
theorem pay13_eq (q : Vec F S256x1 .f32) (cr : Vec F S1x2048 .f32) (acc : Vec F S256x2048 .f32) : k0_pay13 q (k0_pay12 cr) acc = step q cr acc := rfl
theorem pay14_eq (q : Vec F S256x1 .f32) (cr : Vec F S1x2048 .f32) (acc : Vec F S256x2048 .f32) : k0_pay14 q cr acc = step q cr acc := rfl
theorem pay15_eq (q : Vec F S256x1 .f32) (cr : Vec F S1x2048 .f32) (acc : Vec F S256x2048 .f32) : k0_pay15 q cr acc = step q cr acc := rfl
theorem pay16_eq (q : Vec F S256x1 .f32) (cr : Vec F S1x2048 .f32) (acc : Vec F S256x2048 .f32) : k0_pay16 q cr acc = step q cr acc := rfl
theorem pay17_eq (q : Vec F S256x1 .f32) (cr : Vec F S1x2048 .f32) (acc : Vec F S256x2048 .f32) : k0_pay17 q cr acc = step q cr acc := rfl
theorem pay19_eq (q : Vec F S256x1 .f32) (cr : Vec F S1x2048 .f32) (acc : Vec F S256x2048 .f32) :
    k0_pay19 acc (k0_pay18 q cr) (FloatOps.ofBits .f32 0x00000000#32) = step q cr acc := rfl
theorem pay20_eq (q : Vec F S256x1 .f32) (cr : Vec F S1x2048 .f32) (acc : Vec F S256x2048 .f32) : k0_pay20 q cr acc = step q cr acc := rfl
theorem pay21_eq (q : Vec F S256x1 .f32) (cr : Vec F S1x2048 .f32) (acc : Vec F S256x2048 .f32) : k0_pay21 q cr acc = step q cr acc := rfl
theorem pay1_eq (q : Vec F S256x1 .f32) (cr : Vec F S1x2048 .f32) (acc : Vec F S256x2048 .f32) : k0_pay1 q cr acc = step q cr acc := rfl

/-! ## The loads: column `d` of the query block, row `d` of the corpus block -/

/-- Column `d` of the query block, as the 256 × 1 vector the body loads. -/
def colAt (x0 : Vec F S256x16 .f32) (d : Fin 16)
    (inb : ∀ a, (![0, d.val] : Fin 2 → Nat) a + S256x1.size a ≤ S256x16.size a) : Vec F S256x1 .f32 :=
  View.ld x0 (Rect.unit (s := S256x16) ![0, d.val] S256x1.size inb)

/-- Row `d` of the (transposed) corpus block, as the 1 × 2048 vector the body loads. -/
def rowAt (x1 : Vec F S16x2048 .f32) (d : Fin 16)
    (inb : ∀ a, (![d.val, 0] : Fin 2 → Nat) a + S1x2048.size a ≤ S16x2048.size a) : Vec F S1x2048 .f32 :=
  View.ld x1 (Rect.unit (s := S16x2048) ![d.val, 0] S1x2048.size inb)

theorem colAt_apply (x0 : Vec F S256x16 .f32) (d : Fin 16)
    (inb : ∀ a, (![0, d.val] : Fin 2 → Nat) a + S256x1.size a ≤ S256x16.size a) (p : Fin 256) :
    colAt x0 d inb (ix2 p (0 : Fin 1)) = x0 (ix2 p d) := by
  show x0 _ = x0 _
  refine congrArg x0 (funext fun a => Fin.ext ?_)
  match a with
  | ⟨0, _⟩ => show 0 + 1 * p.val = p.val; omega
  | ⟨1, _⟩ => show d.val + 1 * 0 = d.val; omega

theorem rowAt_apply (x1 : Vec F S16x2048 .f32) (d : Fin 16)
    (inb : ∀ a, (![d.val, 0] : Fin 2 → Nat) a + S1x2048.size a ≤ S16x2048.size a) (r : Fin 2048) :
    rowAt x1 d inb (ix2 (0 : Fin 1) r) = x1 (ix2 d r) := by
  show x1 _ = x1 _
  refine congrArg x1 (funext fun a => Fin.ext ?_)
  match a with
  | ⟨0, _⟩ => show d.val + 1 * 0 = d.val; omega
  | ⟨1, _⟩ => show 0 + 1 * r.val = r.val; omega

/-! ## The body as one composition, and the run's output block -/

/-- The body's result: the sixteen steps, coordinate 0 first, from the zero block, then the negation. -/
def body (x0 : Vec F S256x16 .f32) (x1 : Vec F S16x2048 .f32) : FVec F S256x2048 .f32 :=
  negate
    (step (colAt x0 15 (by decide)) (rowAt x1 15 (by decide))
      (step (colAt x0 14 (by decide)) (rowAt x1 14 (by decide))
      (step (colAt x0 13 (by decide)) (rowAt x1 13 (by decide))
      (step (colAt x0 12 (by decide)) (rowAt x1 12 (by decide))
      (step (colAt x0 11 (by decide)) (rowAt x1 11 (by decide))
      (step (colAt x0 10 (by decide)) (rowAt x1 10 (by decide))
      (step (colAt x0 9 (by decide)) (rowAt x1 9 (by decide))
      (step (colAt x0 8 (by decide)) (rowAt x1 8 (by decide))
      (step (colAt x0 7 (by decide)) (rowAt x1 7 (by decide))
      (step (colAt x0 6 (by decide)) (rowAt x1 6 (by decide))
      (step (colAt x0 5 (by decide)) (rowAt x1 5 (by decide))
      (step (colAt x0 4 (by decide)) (rowAt x1 4 (by decide))
      (step (colAt x0 3 (by decide)) (rowAt x1 3 (by decide))
      (step (colAt x0 2 (by decide)) (rowAt x1 2 (by decide))
      (step (colAt x0 1 (by decide)) (rowAt x1 1 (by decide))
      (step (colAt x0 0 (by decide)) (rowAt x1 0 (by decide))
      (zeroBlock)))))))))))))))))

/-- What the run leaves in the output block is `body` of the two input blocks: the one store to the output covers it,
    and each load of the accumulator reads the payload of the store before it. -/
theorem out_eq (c : Dev nD) (i : grid0.Coords) (a2 : Memref sig .tc .vmem S256x16 .f32) (h2 : a2.IsWhole)
    (a3 : Memref sig .tc .vmem S16x2048 .f32) (h3 : a3.IsWhole) (a4 : Memref sig .tc .vmem S256x2048 .f32) (h4 : a4.IsWhole)
    (a5 : Memref sig .tc .vmem S256x2048 .f32) (h5 : a5.IsWhole) (x0 : Vec F S256x16 .f32) (x1 : Vec F S16x2048 .f32) :
    out0_A_2 c i a2 h2 a3 h3 a4 h4 a5 h5 x0 x1 = body x0 x1 := by
  unfold out0_A_2
  rw [View.read_writes_eq_canon _ _ _ (cover0_A_2 c i a2 h2 a3 h3 a4 h4 a5 h5 x0 x1)]
  unfold kernelRun0_A
  dsimp only
  sl_unfold_words
  simp only [View.readCov_cons_toLoadRect]
  rw [View.canon_unit_zero hz]
  simp only [View.readAt_eq_ld, h2.read_unread, h3.read_unread]
  rfl

/-! ## The body at an index, on the extended reals -/

theorem zeroBlock_apply (j : S256x2048.Idx) : (zeroBlock (F := Ideal)) j = 0 := by
  unfold zeroBlock
  rw [shapeCast_self]
  exact Ideal.ofBits_zero_f32

theorem step_apply (q : Vec Ideal S256x1 .f32) (cr : Vec Ideal S1x2048 .f32) (acc : Vec Ideal S256x2048 .f32)
    (p : Fin 256) (r : Fin 2048) :
    step q cr acc (ix2 p r) = acc (ix2 p r) + max (q (ix2 p (0 : Fin 1)) - cr (ix2 (0 : Fin 1) r)) 0 := by
  unfold step
  rw [shapeCast_self, shapeCast_self]
  show acc (ix2 p r) + max (broadcastTo S256x2048 q _ (ix2 p r) - broadcastTo S256x2048 cr _ (ix2 p r))
    (Ideal.ofBits .f32 0x00000000#32) = _
  rw [Cert.LibKeepdims.broadcastTo_a1_ab_apply, broadcastTo_1b_ab_apply, Ideal.ofBits_zero_f32]

theorem negate_apply (acc : Vec Ideal S256x2048 .f32) (j : S256x2048.Idx) : negate acc j = 0 - acc j := by
  show Ideal.ofBits .f32 0x00000000#32 - acc j = _
  rw [Ideal.ofBits_zero_f32]

/-- The body at row `p`, column `r` of its block: zero minus the sixteen positive parts accumulated from zero. -/
theorem body_apply (x0 : Vec Ideal S256x16 .f32) (x1 : Vec Ideal S16x2048 .f32) (p : Fin 256) (r : Fin 2048) :
    body x0 x1 (ix2 p r)
      = 0 - (0 + max (x0 (ix2 p 0) - x1 (ix2 0 r)) 0 + max (x0 (ix2 p 1) - x1 (ix2 1 r)) 0 + max (x0 (ix2 p 2) - x1 (ix2 2 r)) 0 + max (x0 (ix2 p 3) - x1 (ix2 3 r)) 0 + max (x0 (ix2 p 4) - x1 (ix2 4 r)) 0 + max (x0 (ix2 p 5) - x1 (ix2 5 r)) 0 + max (x0 (ix2 p 6) - x1 (ix2 6 r)) 0 + max (x0 (ix2 p 7) - x1 (ix2 7 r)) 0 + max (x0 (ix2 p 8) - x1 (ix2 8 r)) 0 + max (x0 (ix2 p 9) - x1 (ix2 9 r)) 0 + max (x0 (ix2 p 10) - x1 (ix2 10 r)) 0 + max (x0 (ix2 p 11) - x1 (ix2 11 r)) 0 + max (x0 (ix2 p 12) - x1 (ix2 12 r)) 0 + max (x0 (ix2 p 13) - x1 (ix2 13 r)) 0 + max (x0 (ix2 p 14) - x1 (ix2 14 r)) 0 + max (x0 (ix2 p 15) - x1 (ix2 15 r)) 0) := by
  unfold body
  rw [negate_apply]
  simp only [step_apply, zeroBlock_apply, colAt_apply, rowAt_apply]

/-- If the query block's row `j₀` is row `A` of a query array `q`, and the corpus block's column `j₁` is row `B` of a
    corpus array `cc` (coordinate by coordinate), the body's value at `j` is the score of `A` against `B`: zero minus the
    sixteen terms accumulated from zero is minus their sum. -/
theorem block_scores (x0 : Vec Ideal S256x16 .f32) (x1 : Vec Ideal S16x2048 .f32)
    (q : (⟨2, ![2048, 16]⟩ : Shape).Idx → Ideal .f32) (cc : (⟨2, ![8192, 16]⟩ : Shape).Idx → Ideal .f32)
    (j : S256x2048.Idx) (A : Fin 2048) (B : Fin 8192)
    (h0 : ∀ k : Fin 16, x0 (ix2 (j 0) k) = q (ix2 A k)) (h1 : ∀ k : Fin 16, x1 (ix2 k (j 1)) = cc (ix2 B k)) :
    body x0 x1 j = Cert.Scores.scoreAt q cc A B := by
  obtain ⟨p, r, rfl⟩ : ∃ (p : Fin 256) (r : Fin 2048), j = ix2 p r := ⟨j 0, j 1, eq_ix2 j⟩
  refine (body_apply x0 x1 p r).trans ?_
  refine (Cert.Scores.zero_sub_chain fun k => max (x0 (ix2 p k) - x1 (ix2 k r)) 0).trans ?_
  unfold Cert.Scores.scoreAt
  refine congrArg Neg.neg (Finset.sum_congr rfl fun k _ => ?_)
  have e0 : x0 (ix2 p k) = q (ix2 A k) := h0 k
  have e1 : x1 (ix2 k r) = cc (ix2 B k) := h1 k
  rw [e0, e1]

end Cert.KernelIdeal.Body

end
-- ==== Proof.KernelScores.lean ====
/-
  The kernel's result array is the score array.  The grid has 8 × 4 points; point `t = (t₀, t₁)` is given query rows
  `256 t₀ … 256 t₀ + 255` (all sixteen coordinates) and, of the transposed corpus, all sixteen coordinate rows at columns
  `2048 t₁ … 2048 t₁ + 2047`, and writes back block `(t₀, t₁)` of the result.  Entry `(p, r)` of what it writes is the
  body's value there, which is the score of query row `256 t₀ + p` against corpus row `2048 t₁ + r`: the transposed
  corpus at `(k, 2048 t₁ + r)` is the corpus at `(2048 t₁ + r, k)`.  The 32 blocks tile the array, so the array after
  the run is the score array everywhere.
-/
import proofs.«107500_j68882685493537_2_alg».proof.Proof.Gen.KernelIdeal.Value
import proofs.«107500_j68882685493537_2_alg».proof.Proof.BodyValue
import proofs.«107500_j68882685493537_2_alg».proof.Proof.Scores
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- The score array of the two argument arrays as launched, on core `c`. -/
abbrev result (c : Dev nD) : S2048x8192.Idx → Ideal .f32 :=
  Cert.Scores.scores (m ((c : Thread nD τ).loc main_arg0)) (m ((c : Thread nD τ).loc main_arg1))

/-- When the region is entered the second operand's array is the corpus array transposed: the one host operation
    before the region wrote it. -/
theorem corpusT_eq (c : Dev nD) :
    (V m c main_v0 : S16x8192.Idx → Ideal .f32)
      = transpose S16x8192 [1, 0] (m ((c : Thread nD τ).loc main_arg1)) transposes_S8192x16_S16x8192_1_0 := by
  dsimp only [Gen.V, Gen.hostOps0]
  after_results

/-- The index maps over the 32 grid points: the query window moves with the result's row block and stays at
    coordinate block 0, the corpus window stays at coordinate block 0 and moves with the result's column block, and
    the result's block indices range over 8 × 4. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 3 :=
  (by decide +kernel : ∀ t : Fin grid0.N, _)

/-- Every block of the result is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The query block at point `t`, entry `(p, k)`: the query array at row `256 t₀ + p`, coordinate `k`. -/
theorem queryBlock_apply (c : Dev nD) (t : Fin cfg0.N) (p : Fin 256) (k : Fin 16) (A : Fin 2048)
    (hA : A.val = win0_2.index t (0 : Fin 2) * 256 + p.val) :
    (iblk m c 0 t : S256x16.Idx → Ideal .f32) (ix2 p k) = m ((c : Thread nD τ).loc main_arg0) (ix2 A k) := by
  obtain ⟨e0, e1, e2, e3, e4, e5⟩ := idx_facts t
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = A.val; rw [e0, hA]; omega
  | ⟨1, _⟩ => show win0_0.index t (1 : Fin 2) * 16 + 1 * k.val = k.val; rw [e1]; omega

/-- The transposed-corpus block at point `t`, entry `(k, r)`: the corpus array at row `2048 t₁ + r`, coordinate `k`. -/
theorem corpusBlock_apply (c : Dev nD) (t : Fin cfg0.N) (k : Fin 16) (r : Fin 2048) (B : Fin 8192)
    (hB : B.val = win0_2.index t (1 : Fin 2) * 2048 + r.val) :
    (iblk m c 1 t : S16x2048.Idx → Ideal .f32) (ix2 k r) = m ((c : Thread nD τ).loc main_arg1) (ix2 B k) := by
  obtain ⟨e0, e1, e2, e3, e4, e5⟩ := idx_facts t
  unfold iblk
  rw [View.read_apply]
  show V m c main_v0 (((cfg0.win 1).blk t).view.emb (ix2 k r)) = _
  have hi : ((cfg0.win 1).blk t).view.emb (ix2 k r) = (ix2 k B : S16x8192.Idx) := funext fun a => Fin.ext (by
    match a with
    | ⟨0, _⟩ => show win0_1.index t (0 : Fin 2) * 16 + 1 * k.val = k.val; rw [e2]; omega
    | ⟨1, _⟩ => show win0_1.index t (1 : Fin 2) * 2048 + 1 * r.val = B.val; rw [e3, hB]; omega)
  rw [hi, corpusT_eq]
  exact transpose_ix2_apply _ _ k B

/-- What point `t` writes back is block `t` of the score array. -/
theorem flushed_eq (c : Dev nD) (t : Fin cfg0.N) :
    (dats m 0 c).flushed 2 t = ((cfg0.win 2).blk t).view.read (Elt Ideal) (result m c) := by
  rw [Cert.KernelIdeal.Value.flushed2_A, Cert.KernelIdeal.Body.out_eq]
  obtain ⟨e0, e1, e2, e3, e4, e5⟩ := idx_facts t
  refine funext fun (j : S256x2048.Idx) => ?_
  have hp : (j 0).val < 256 := idx2_lt0 j
  have hr : (j 1).val < 2048 := idx2_lt1 j
  have hi : ((cfg0.win 2).blk t).view.emb j
      = (ix2 (⟨win0_2.index t (0 : Fin 2) * 256 + (j 0).val, by omega⟩ : Fin 2048)
          (⟨win0_2.index t (1 : Fin 2) * 2048 + (j 1).val, by omega⟩ : Fin 8192) : S2048x8192.Idx) :=
    funext fun a => Fin.ext (by
      match a with
      | ⟨0, _⟩ =>
        show win0_2.index t (0 : Fin 2) * 256 + 1 * (j 0).val = win0_2.index t (0 : Fin 2) * 256 + (j 0).val
        omega
      | ⟨1, _⟩ =>
        show win0_2.index t (1 : Fin 2) * 2048 + 1 * (j 1).val = win0_2.index t (1 : Fin 2) * 2048 + (j 1).val
        omega)
  show Cert.KernelIdeal.Body.body (iblk m c 0 t) (iblk m c 1 t) j = result m c (((cfg0.win 2).blk t).view.emb j)
  rw [hi]
  exact Cert.KernelIdeal.Body.block_scores (iblk m c 0 t) (iblk m c 1 t) _ _ j _ _
    (fun k => queryBlock_apply m c t (j 0) k _ rfl) (fun k => corpusBlock_apply m c t k (j 1) _ rfl)

/-- An index of the array is in point `t`'s block iff each coordinate is in the block's range on its axis. -/
theorem mem_blk (t : Fin cfg0.N) (i : S2048x8192.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v1).slice (win0_2.rect t)).set ↔ _
  rw [View.set_slice_whole, Rect.mem_set_unit]
  exact Iff.rfl

/-- Every index of the result array is in the block of the point `(i₀ / 256, i₁ / 2048)`, which writes back. -/
theorem covered (i : S2048x8192.Idx) :
    ∃ t : Fin cfg0.N, (cfg0.win 2).flush t = true ∧ i ∈ ((cfg0.win 2).blk t).view.set := by
  have hi0 : (i 0).val < 2048 := (i 0).isLt
  have hi1 : (i 1).val < 8192 := (i 1).isLt
  obtain ⟨t, ht⟩ := idx_onto ⟨(i 0).val / 256, by omega⟩ ⟨(i 1).val / 2048, by omega⟩
  have q0 : win0_2.index t (0 : Fin 2) = (i 0).val / 256 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2048 ≤ (i 1).val ∧ (i 1).val < win0_2.index t (1 : Fin 2) * 2048 + 2048
    omega

/-- The result array after the run is the score array. -/
theorem final (c : Dev nD) : (dats m 0 c).arrAt 2 cfg0.N = result m c :=
  (dats m 0 c).arrAt_eq_of_cover 2 (result m c) (fun t _ => flushed_eq m c t) (covered)

/-- The kernel's run: every weakly fair execution ends with the result array at the score array of the arguments
    as launched, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelValue

end
-- ==== Proof.RefScores.lean ====
/-
  The reference program's result is the score array.  Read one operation at a time: entry `(a, b)` of the result is the
  negation of the sum, from an initial zero and over the last axis `k`, of `max (difference) 0` at `(a, b, k)`; the
  difference there is the query array at `(a, k)` (broadcast along the corpus axis) minus the corpus array at `(b, k)`
  (broadcast along the query axis).
-/
import proofs.«107500_j68882685493537_2_alg».proof.Proof.Gen.ReferenceIdeal.Read
import proofs.«107500_j68882685493537_2_alg».proof.Proof.Scores
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- Through the two broadcasts of the query array, position `(a, b, k)` reads the query array at `(a, k)`. -/
theorem idx_query (a : Fin 2048) (b : Fin 8192) (k : Fin 16) :
    idx_main_v0 (idx_main_v2 (idx_main_v6 (ix2 a b) k)) = ix2 a k :=
  funext fun d => Fin.ext (by match d with | ⟨0, _⟩ => rfl | ⟨1, _⟩ => rfl)

/-- Through the two broadcasts of the corpus array, position `(a, b, k)` reads the corpus array at `(b, k)`. -/
theorem idx_corpus (a : Fin 2048) (b : Fin 8192) (k : Fin 16) :
    idx_main_v1 (idx_main_v3 (idx_main_v6 (ix2 a b) k)) = ix2 b k :=
  funext fun d => Fin.ext (by match d with | ⟨0, _⟩ => rfl | ⟨1, _⟩ => rfl)

/-- The reference's last stage is the score array of its two arguments. -/
theorem ref_eq_scores (x0 : (⟨S2048x16, .f32⟩ : BufTy).Contents (Elt Ideal))
    (x1 : (⟨S8192x16, .f32⟩ : BufTy).Contents (Elt Ideal)) :
    val_main_v7 (F := Ideal) x0 x1 = Cert.Scores.scores x0 x1 := by
  funext i
  obtain ⟨a, b, rfl⟩ : ∃ (a : Fin 2048) (b : Fin 8192), i = ix2 a b := ⟨i 0, i 1, eq_ix2 i⟩
  rw [val_main_v7_apply, val_main_v6_apply, Cert.Scores.scores_ix2]
  simp only [val_main_v5_apply, val_main_v4_apply, val_main_v2_apply, val_main_v3_apply, val_main_v0_apply,
    val_main_v1_apply, val_main_call0_v0_apply, val_main_call0_cst_apply, val_main_cst_apply, idx_query, idx_corpus,
    Ideal.hostNegf_def, Ideal.negf_def, Ideal.maximumf_def, Ideal.subf_def, Ideal.ofBits_def, Ideal.ofBits_zero_f32,
    zero_add]
  rfl

end Cert.ReferenceIdeal.RefValue

end
-- ==== Proof.lean ====
/-
  Scores of 2048 queries against 8192 corpus rows over sixteen coordinates:

      score (a, b) = -(Σ_k max (q a k - c b k) 0).

  The kernel transposes the corpus, and on an 8 × 4 grid computes each 256 × 2048 block of scores by accumulating, from a
  zero block, the sixteen outer differences `max (q · k - cᵀ k ·) 0` one coordinate after the other, and writing back zero
  minus the accumulator.  The reference broadcasts both arrays to 2048 × 8192 × 16, subtracts, takes the maximum with zero,
  sums over the last axis from an initial zero, and negates.

  On the extended reals both are the score array: the kernel's value at an entry is `0 - (0 + t₀ + … + t₁₅)`, the
  reference's is `-(0 + Σ_k t_k)`, with the same sixteen terms `t_k`; addition is associative with neutral element zero
  and `0 - x = -x`, at every extended real, so no finiteness of the inputs is used.  The idealization rewrote nothing, so
  what it preserves is trivial; the three frames are the generated frame certificates of the two kernel programs and the
  reference's run with its result dropped.
-/
import proofs.«107500_j68882685493537_2_alg».proof.Defs
import proofs.«107500_j68882685493537_2_alg».proof.Proof.Gen.Kernel
import proofs.«107500_j68882685493537_2_alg».proof.Proof.Gen.Kernel.Skeleton
import proofs.«107500_j68882685493537_2_alg».proof.Proof.Gen.Kernel.Launch
import proofs.«107500_j68882685493537_2_alg».proof.Proof.Gen.Kernel.Points
import proofs.«107500_j68882685493537_2_alg».proof.Proof.Gen.Kernel.Frame
import proofs.«107500_j68882685493537_2_alg».proof.Proof.Gen.KernelIdeal
import proofs.«107500_j68882685493537_2_alg».proof.Proof.Gen.KernelIdeal.Skeleton
import proofs.«107500_j68882685493537_2_alg».proof.Proof.Gen.KernelIdeal.Launch
import proofs.«107500_j68882685493537_2_alg».proof.Proof.Gen.KernelIdeal.Points
import proofs.«107500_j68882685493537_2_alg».proof.Proof.Gen.KernelIdeal.Frame
import proofs.«107500_j68882685493537_2_alg».proof.Proof.Gen.ReferenceIdeal
import proofs.«107500_j68882685493537_2_alg».proof.Proof.Gen.Pre_finite_inputs
import proofs.«107500_j68882685493537_2_alg».proof.Proof.Gen.KernelIdeal.Value
import proofs.«107500_j68882685493537_2_alg».proof.Proof.Gen.ReferenceIdeal.Run
import proofs.«107500_j68882685493537_2_alg».proof.Proof.Gen.ReferenceIdeal.Read
import proofs.«107500_j68882685493537_2_alg».proof.Proof.KernelScores
import proofs.«107500_j68882685493537_2_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the two arguments, the idealized kernel's result array and the idealized reference's
    both end at the score array of the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_scores, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
